-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S2x32 : Shape := ⟨2, ![2, 32]⟩
abbrev S2 : Shape := ⟨1, ![2]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S1600000x32 .f32) (main_arg1 : FVec F S2x32 .f32) (main_arg2 : FVec F S2 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S1600000x32 : Shape := ⟨2, ![1600000, 32]⟩
abbrev S2x32 : Shape := ⟨2, ![2, 32]⟩
abbrev S2 : Shape := ⟨1, ![2]⟩
abbrev S1x32 : Shape := ⟨2, ![1, 32]⟩
abbrev S32 : Shape := ⟨1, ![32]⟩
abbrev S1 : Shape := ⟨1, ![1]⟩
abbrev S_ : Shape := ⟨0, ![]⟩
abbrev S1x1 : Shape := ⟨2, ![1, 1]⟩
abbrev S32x1600000 : Shape := ⟨2, ![32, 1600000]⟩
abbrev S12500x2x128 : Shape := ⟨3, ![12500, 2, 128]⟩
abbrev S32x64000 : Shape := ⟨2, ![32, 64000]⟩
abbrev S500x2x128 : Shape := ⟨3, ![500, 2, 128]⟩
abbrev S1x64000 : Shape := ⟨2, ![1, 64000]⟩
abbrev S500x128 : Shape := ⟨2, ![500, 128]⟩
abbrev S500x1x128 : Shape := ⟨3, ![500, 1, 128]⟩
abbrev S12500x128x2 : Shape := ⟨3, ![12500, 128, 2]⟩
abbrev S1600000x2 : Shape := ⟨2, ![1600000, 2]⟩

abbrev nBuf : Space → Nat
  | .hbm => 19
  | .vmem => 6
  | .smem => 0
  | _ => 0

abbrev bufTy : (tb : Table) → Fin (tcTables nBuf tb) → BufTy
  | .hbm, ⟨0, _⟩ => ⟨S1600000x32, .f32⟩
  | .hbm, ⟨1, _⟩ => ⟨S2x32, .f32⟩
  | .hbm, ⟨2, _⟩ => ⟨S2, .f32⟩
  | .hbm, ⟨3, _⟩ => ⟨S1x32, .f32⟩
  | .hbm, ⟨4, _⟩ => ⟨S32, .f32⟩
  | .hbm, ⟨5, _⟩ => ⟨S1x32, .f32⟩
  | .hbm, ⟨6, _⟩ => ⟨S32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S32x1600000, .f32⟩
  | .hbm, ⟨16, _⟩ => ⟨S12500x2x128, .f32⟩
  | .hbm, ⟨17, _⟩ => ⟨S12500x128x2, .f32⟩
  | .hbm, ⟨18, _⟩ => ⟨S1600000x2, .f32⟩
  | .local _ .vmem, ⟨0, _⟩ => ⟨S32x64000, .f32⟩
  | .local _ .vmem, ⟨1, _⟩ => ⟨S32x64000, .f32⟩
  | .local _ .vmem, ⟨2, _⟩ => ⟨S1x32, .f32⟩
  | .local _ .vmem, ⟨3, _⟩ => ⟨S1x1, .f32⟩
  | .local _ .vmem, ⟨4, _⟩ => ⟨S500x2x128, .f32⟩
  | .local _ .vmem, ⟨5, _⟩ => ⟨S500x2x128, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S500x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x32_S1x32_0_0 : S2x32.Slices ![0, 0] S1x32
  shapeCasts_S1x32_S32 : S1x32.ShapeCasts S32
  slices_S2x32_S1x32_1_0 : S2x32.Slices ![1, 0] S1x32
  shapeCasts_S32_S1x32 : S32.ShapeCasts S1x32
  slices_S2_S1_0 : S2.Slices ![0] S1
  shapeCasts_S1_S_ : S1.ShapeCasts S_
  slices_S2_S1_1 : S2.Slices ![1] S1
  shapeCasts_S_S1x1 : S_.ShapeCasts S1x1
  transposes_S1600000x32_S32x1600000_1_0 : S1600000x32.Transposes [1, 0] S32x1600000
  inb_S32x64000_S32x64000_0_0 : ∀ a, (![0, 0] : Fin 2 → Nat) a + S32x64000.size a ≤ S32x64000.size a
  h_S32x64000 : 0 < S32x64000.numel
  shapeCasts_S32x64000_S32x64000 : S32x64000.ShapeCasts S32x64000
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x64000_S500x128 : S1x64000.ShapeCasts S500x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S500x2x128_S500x1x128_0_0_0 : ∀ a, (![0, 0, 0] : Fin 3 → Nat) a + S500x1x128.size a ≤ S500x2x128.size a
  h_S500x1x128 : 0 < S500x1x128.numel
  shapeCasts_S500x1x128_S500x128 : S500x1x128.ShapeCasts S500x128
  shapeCasts_S500x128_S500x1x128 : S500x128.ShapeCasts S500x1x128
  inb_S500x2x128_S500x1x128_0_1_0 : ∀ a, (![0, 1, 0] : Fin 3 → Nat) a + S500x1x128.size a ≤ S500x2x128.size a
  transposes_S12500x2x128_S12500x128x2_0_2_1 : S12500x2x128.Transposes [0, 2, 1] S12500x128x2
  shapeCasts_S12500x128x2_S1600000x2 : S12500x128x2.ShapeCasts S1600000x2
  dot_S1x32_S32x64000_S1x64000_1_0_0_1_n_n_wf : DotDims.WF S1x32 S32x64000 S1x64000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64000.size a ≤ S32x1600000.size a
  hwx0_0 : ∀ i : grid0.Coords, EltTy.bits .f32 = 32 ∨ (Rect.block (s := S32x1600000) S32x64000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S500x2x128.size a ≤ S12500x2x128.size a
  hwx0_3 : ∀ i : grid0.Coords, EltTy.bits .f32 = 32 ∨ (Rect.block (s := S12500x2x128) S500x2x128.size (cc0_transform_3 i) (hinb0_3 i)).WholeWords (EltTy.packing .f32)

variable [Facts₀]

def dot_S1x32_S32x64000_S1x64000_1_0_0_1_n_n : DotDims S1x32 S32x64000 S1x64000 where
  lhsContracting := [1]
  rhsContracting := [0]
  lhsNonContracting := [0]
  rhsNonContracting := [1]
  lhsBatch := []
  rhsBatch := []
  wf := dot_S1x32_S32x64000_S1x64000_1_0_0_1_n_n_wf

abbrev win0_0 : Pipeline.Window sig grid0 :=
  Pipeline.Window.ofSpec (Memref.whole main_v12) S32x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S500x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S2x32 : Shape := ⟨2, ![2, 32]⟩
abbrev S2 : Shape := ⟨1, ![2]⟩
abbrev S32x2 : Shape := ⟨2, ![32, 2]⟩
abbrev S1600000x2 : Shape := ⟨2, ![1600000, 2]⟩
abbrev S1x2 : Shape := ⟨2, ![1, 2]⟩
abbrev S_ : Shape := ⟨0, ![]⟩
abbrev S1600000 : Shape := ⟨1, ![1600000]⟩
abbrev S1600000x1 : Shape := ⟨2, ![1600000, 1]⟩

abbrev nBuf : Space → Nat
  | .hbm => 22
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S2x32, .f32⟩
  | .hbm, ⟨2, _⟩ => ⟨S2, .f32⟩
  | .hbm, ⟨3, _⟩ => ⟨S32x2, .f32⟩
  | .hbm, ⟨4, _⟩ => ⟨S1600000x2, .f32⟩
  | .hbm, ⟨5, _⟩ => ⟨S1x2, .f32⟩
  | .hbm, ⟨6, _⟩ => ⟨S1600000x2, .f32⟩
  | .hbm, ⟨7, _⟩ => ⟨S1600000x2, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000x1, .f32⟩
  | .hbm, ⟨14, _⟩ => ⟨S1600000x2, .f32⟩
  | .hbm, ⟨15, _⟩ => ⟨S1600000x2, .f32⟩
  | .hbm, ⟨16, _⟩ => ⟨S1600000x2, .f32⟩
  | .hbm, ⟨17, _⟩ => ⟨S_, .f32⟩
  | .hbm, ⟨18, _⟩ => ⟨S1600000, .f32⟩
  | .hbm, ⟨19, _⟩ => ⟨S1600000x1, .f32⟩
  | .hbm, ⟨20, _⟩ => ⟨S1600000x2, .f32⟩
  | .hbm, ⟨21, _⟩ => ⟨S1600000x2, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S2x32_S32x2_1_0 : S2x32.Transposes [1, 0] S32x2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  reducesTo_S1600000x2_S1600000_d1 : S1600000x2.ReducesTo [1] S1600000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  dot_S1600000x32_S32x2_S1600000x2_1_0_0_1_n_n_wf : DotDims.WF S1600000x32 S32x2 S1600000x2 [1] [0] [0] [1] [] []

variable [Facts₀]

def dot_S1600000x32_S32x2_S1600000x2_1_0_0_1_n_n : DotDims S1600000x32 S32x2 S1600000x2 where
  lhsContracting := [1]
  rhsContracting := [0]
  lhsNonContracting := [0]
  rhsNonContracting := [1]
  lhsBatch := []
  rhsBatch := []
  wf := dot_S1600000x32_S32x2_S1600000x2_1_0_0_1_n_n_wf

class Facts : Prop extends Facts₀ where

variable [Facts]
-- ==== Proof.Payload.lean ====
/-
  The body's arithmetic at an index.

  The body multiplies the 1 x 32 coefficient row by the 32 x 64000 block, so lane l of the product is
  sum_k w (0, k) * x (k, l). The product is re-laid as 500 rows of 128 lanes (row p, lane q is lane p * 128 + q),
  the offset is added and the logistic function applied. The first stored plane is that value, the second its
  complement to 1; each plane is the 500 x 128 array with a unit middle axis inserted.
-/
import proofs.«181063_g77627238907915_cont_9to1_m_635_14_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product's dimension record. -/
abbrev D : DotDims S1x32 S32x64000 S1x64000 := dot_S1x32_S32x64000_S1x64000_1_0_0_1_n_n

theorem lhs0 (i : S1x64000.Idx) (q : D.contr.Idx) : (D.lhsIdx i q 0).val = (i 0).val := by
  unfold DotDims.lhsIdx
  rw [dif_neg (show ¬(0 : Fin S1x32.rank) ∈ D.lhsBatch by decide), dif_pos (show (0 : Fin S1x32.rank) ∈ D.lhsNonContracting by decide)]
  rfl
theorem lhs1 (i : S1x64000.Idx) (q : D.contr.Idx) : (D.lhsIdx i q 1).val = (q ⟨0, by decide⟩).val :=
  D.lhsIdx_val_of_single rfl i q
theorem rhs0 (i : S1x64000.Idx) (q : D.contr.Idx) : (D.rhsIdx i q 0).val = (q ⟨0, by decide⟩).val :=
  D.rhsIdx_val_of_single rfl i q
theorem rhs1 (i : S1x64000.Idx) (q : D.contr.Idx) : (D.rhsIdx i q 1).val = (i 1).val := by
  unfold DotDims.rhsIdx
  rw [dif_neg (show ¬(1 : Fin S32x64000.rank) ∈ D.rhsBatch by decide), dif_pos (show (1 : Fin S32x64000.rank) ∈ D.rhsNonContracting by decide)]
  rfl

/-- Lane l of the row-times-block product is the sum over the 32 features. -/
theorem product_apply (w : FVec Ideal S1x32 .f32) (x : FVec Ideal S32x64000 .f32) (l : Fin 64000) :
    matmul D none w x (constant (F := Ideal) S1x64000 .f32 0x00000000#32) (ix2 0 l) = ∑ k : Fin 32, w (ix2 0 k) * x (ix2 k l) := by
  simp only [matmul]
  rw [Ideal.matmul_constant_zero_apply, ← Equiv.sum_comp (contrEquiv1 D 32 rfl rfl).symm]
  refine Finset.sum_congr rfl fun k _ => ?_
  have hk := contrEquiv1_symm_val D 32 rfl rfl k
  have el : D.lhsIdx (ix2 0 l) ((contrEquiv1 D 32 rfl rfl).symm k) = ix2 0 k := funext fun a => Fin.ext (by
    match a with
    | ⟨0, _⟩ => exact lhs0 _ _
    | ⟨1, _⟩ => exact (lhs1 _ _).trans hk)
  have er : D.rhsIdx (ix2 0 l) ((contrEquiv1 D 32 rfl rfl).symm k) = ix2 k l := funext fun a => Fin.ext (by
    match a with
    | ⟨0, _⟩ => exact (rhs0 _ _).trans hk
    | ⟨1, _⟩ => exact rhs1 _ _)
  rw [el, er]

/-- The logistic value at row p, lane q of the re-laid product: the logistic function of the affine form of lane
    l = p * 128 + q of the block. -/
theorem logistic_apply (x0 : Vec Ideal S32x64000 .f32) (x1 : Vec Ideal S1x32 .f32) (x2 : Vec Ideal S1x1 .f32)
    (p : Fin 500) (q : Fin 128) (l : Fin 64000) (hl : l.val = p.val * 128 + q.val) :
    k0_pay1 x0 x1 x2 (ix2 p q) = Ideal.logistic ((∑ k : Fin 32, x1 (ix2 0 k) * x0 (ix2 k l)) + x2 (ix2 0 0)) := by
  unfold k0_pay1
  show Ideal.logistic (shapeCast S500x128 (matmul D none (shapeCast S1x32 x1 shapeCasts_S1x32_S1x32) (shapeCast S32x64000 x0 shapeCasts_S32x64000_S32x64000)
      (constant (F := Ideal) S1x64000 .f32 0x00000000#32)) shapeCasts_S1x64000_S500x128 (ix2 p q) + extractAt ![0, 0] x2 inpos_S1x1_p0_0) = _
  rw [shapeCast_self, shapeCast_self,
    shapeCast_apply _ shapeCasts_S1x64000_S500x128 (ix2 p q) (ix2 0 l) (by
      rw [Shape.rowMajor_val_two, Shape.rowMajor_val_two]
      show (0 : Fin 1).val * 64000 + l.val = p.val * 128 + q.val
      rw [hl]; simp),
    product_apply]
  have e : extractAt ![0, 0] x2 inpos_S1x1_p0_0 = x2 (ix2 0 0) :=
    congrArg x2 (funext fun a => Fin.ext (by match a with | ⟨0, _⟩ => rfl | ⟨1, _⟩ => rfl))
  rw [e]

/-- The first stored plane at (p, 0, q). -/
theorem first_plane_apply (x0 : Vec Ideal S32x64000 .f32) (x1 : Vec Ideal S1x32 .f32) (x2 : Vec Ideal S1x1 .f32)
    (p : Fin 500) (q : Fin 128) : k0_pay2 x0 x1 x2 (ix3 p 0 q) = k0_pay1 x0 x1 x2 (ix2 p q) := by
  unfold k0_pay2
  exact shapeCast_apply _ shapeCasts_S500x128_S500x1x128 (ix3 p 0 q) (ix2 p q) (by
    rw [Shape.rowMajor_val_two, Shape.rowMajor_val_three]
    show p.val * 128 + q.val = (p.val * 1 + (0 : Fin 1).val) * 128 + q.val
    simp)

theorem ofBits_one : Ideal.ofBits .f32 0x3F800000#32 = 1 := by simp [Ideal.ofBits, Ideal.ieee, -EReal.coe_mul]; norm_num

/-- The second stored plane at (p, 0, q): the complement to 1. -/
theorem second_plane_apply (x0 : Vec Ideal S32x64000 .f32) (x1 : Vec Ideal S1x32 .f32) (x2 : Vec Ideal S1x1 .f32)
    (p : Fin 500) (q : Fin 128) : k0_pay3 x0 x1 x2 (ix3 p 0 q) = 1 - k0_pay1 x0 x1 x2 (ix2 p q) := by
  unfold k0_pay3
  refine (shapeCast_apply _ shapeCasts_S500x128_S500x1x128 (ix3 p 0 q) (ix2 p q) (by
    rw [Shape.rowMajor_val_two, Shape.rowMajor_val_three]
    show p.val * 128 + q.val = (p.val * 1 + (0 : Fin 1).val) * 128 + q.val
    simp)).trans ?_
  show Ideal.ofBits .f32 0x3F800000#32 - k0_pay1 x0 x1 x2 (ix2 p q) = _
  rw [ofBits_one]

end Cert.KernelIdeal.Payload

end
-- ==== Proof.OutBlock.lean ====
/-
  What the body leaves in the 500 x 2 x 128 output block.

  The body stores two planes: plane 0 (middle coordinate 0) holds the logistic values, plane 1 their complements
  to 1. Entry (p, j, q) of the block is therefore the class-j value of lane p * 128 + q of the input block, where
  the lane's value is the logistic function of its affine form sum_k w (0, k) * x (k, lane) + offset.
  The two stored rectangles tile the block, so the block is this one function of its index.
-/
import proofs.«181063_g77627238907915_cont_9to1_m_635_14_alg».proof.Proof.Gen.KernelIdeal.Frame
import proofs.«181063_g77627238907915_cont_9to1_m_635_14_alg».proof.Proof.Payload

noncomputable section

namespace Cert.KernelIdeal.OutBlock

open Cert.KernelIdeal Cert.KernelIdeal.Gen Cert.KernelIdeal.Payload Idealize.ShloMosaic Idealize.ShloMosaic.ValueIdx

/-- Class 0 gets the logistic function of the logit difference d, class 1 (any other number) its complement to 1. -/
def pick (j : Nat) (d : EReal) : EReal := if j = 0 then Ideal.logistic d else 1 - Ideal.logistic d

/-- The affine form of lane L of a block (0 outside the block's 64000 lanes). -/
def laneForm (x0 : Vec Ideal S32x64000 .f32) (x1 : Vec Ideal S1x32 .f32) (x2 : Vec Ideal S1x1 .f32) (L : Nat) : EReal :=
  if h : L < 64000 then (∑ k : Fin 32, x1 (ix2 0 k) * x0 (ix2 k ⟨L, h⟩)) + x2 (ix2 0 0) else 0

/-- The output block as one function of its index. -/
def blockFn (x0 : Vec Ideal S32x64000 .f32) (x1 : Vec Ideal S1x32 .f32) (x2 : Vec Ideal S1x1 .f32) : S500x2x128.Idx → EReal :=
  fun y => pick (y 1).val (laneForm x0 x1 x2 ((y 0).val * 128 + (y 2).val))

theorem zero2 : (![0, 0] : Fin 2 → Nat) = fun _ => 0 := funext fun a => by fin_cases a <;> rfl

/-- The first stored plane is the block function on the rectangle at offset (0, 0, 0). -/
theorem first_plane (x0 : Vec Ideal S32x64000 .f32) (x1 : Vec Ideal S1x32 .f32) (x2 : Vec Ideal S1x1 .f32) (x : S500x1x128.Idx) :
    k0_pay2 x0 x1 x2 x = blockFn x0 x1 x2 (r0_3.emb x) := by
  obtain ⟨p, z, q, rfl⟩ : ∃ (p : Fin 500) (z : Fin 1) (q : Fin 128), x = ix3 p z q := ⟨x 0, x 1, x 2, eq_ix3 x⟩
  obtain rfl : z = 0 := Subsingleton.elim _ _
  have hp := p.isLt
  have hq := q.isLt
  rw [first_plane_apply, logistic_apply x0 x1 x2 p q ⟨p.val * 128 + q.val, by omega⟩ rfl]
  unfold blockFn
  have e0 : ((r0_3.emb (ix3 p 0 q)) 0).val = p.val := by show 0 + 1 * p.val = p.val; omega
  have e1 : ((r0_3.emb (ix3 p 0 q)) 1).val = 0 := rfl
  have e2 : ((r0_3.emb (ix3 p 0 q)) 2).val = q.val := by show 0 + 1 * q.val = q.val; omega
  rw [e0, e1, e2]
  unfold pick laneForm
  rw [if_pos rfl, dif_pos (by omega)]

/-- The second stored plane is the block function on the rectangle at offset (0, 1, 0). -/
theorem second_plane (x0 : Vec Ideal S32x64000 .f32) (x1 : Vec Ideal S1x32 .f32) (x2 : Vec Ideal S1x1 .f32) (x : S500x1x128.Idx) :
    k0_pay3 x0 x1 x2 x = blockFn x0 x1 x2 (r0_4.emb x) := by
  obtain ⟨p, z, q, rfl⟩ : ∃ (p : Fin 500) (z : Fin 1) (q : Fin 128), x = ix3 p z q := ⟨x 0, x 1, x 2, eq_ix3 x⟩
  obtain rfl : z = 0 := Subsingleton.elim _ _
  have hp := p.isLt
  have hq := q.isLt
  rw [second_plane_apply, logistic_apply x0 x1 x2 p q ⟨p.val * 128 + q.val, by omega⟩ rfl]
  unfold blockFn
  have e0 : ((r0_4.emb (ix3 p 0 q)) 0).val = p.val := by show 0 + 1 * p.val = p.val; omega
  have e1 : ((r0_4.emb (ix3 p 0 q)) 1).val = 1 := rfl
  have e2 : ((r0_4.emb (ix3 p 0 q)) 2).val = q.val := by show 0 + 1 * q.val = q.val; omega
  rw [e0, e1, e2]
  unfold pick laneForm
  rw [if_neg (by decide), dif_pos (by omega)]

/-- THE BLOCK after the body, from the three input blocks. -/
theorem out_eq (x0 : Vec Ideal S32x64000 .f32) (x1 : Vec Ideal S1x32 .f32) (x2 : Vec Ideal S1x1 .f32) :
    out0_3 x0 x1 x2 = blockFn x0 x1 x2 := by
  funext y
  unfold out0_3
  rw [View.ld_unit_zero (S := S32x64000) zero2, View.ld_unit_zero (S := S1x32) zero2, View.ld_unit_zero (S := S1x1) zero2]
  refine View.canon_apply_of_pieces (Val := Elt Ideal) (S := S500x2x128) (e := .f32) (blockFn x0 x1 x2) _ ?_ y (cover0_3 _ _ y)
  intro pc hpc x
  simp only [List.mem_cons, List.mem_nil_iff, or_false] at hpc
  rcases hpc with rfl | rfl
  · exact second_plane x0 x1 x2 x
  · exact first_plane x0 x1 x2 x

end Cert.KernelIdeal.OutBlock

end
-- ==== Proof.OutArray.lean ====
/-
  The region's output array after the run.

  Grid point t reads columns t * 64000 .. t * 64000 + 63999 of the transposed input (all 32 rows), the whole
  coefficient row and the whole offset, and writes rows t * 500 .. t * 500 + 499 of the 12500 x 2 x 128 output.
  Lane L of its input block is column t * 64000 + L of the transposed input, and entry (p, j, q) of its output
  block is entry (t * 500 + p, j, q) of the output: so every block written back is the restriction of ONE function
  of the output index, entry (C, j, l) being the class-j value of the affine form of row C * 128 + l.
  The 25 blocks cover the output (row C is in block C / 500), so the output array ends as that function.
-/
import proofs.«181063_g77627238907915_cont_9to1_m_635_14_alg».proof.Proof.Gen.KernelIdeal.Frame
import proofs.«181063_g77627238907915_cont_9to1_m_635_14_alg».proof.Proof.OutBlock

set_option maxRecDepth 16384

noncomputable section

namespace Cert.KernelIdeal.OutArray

open Cert.KernelIdeal Cert.KernelIdeal.Gen Cert.KernelIdeal.OutBlock Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ)

/-- The affine form of row N over the arrays the region finds: the transposed input zt, the coefficient row wd and
    the offset bd (0 outside the 1600000 rows). -/
def rowForm (zt : S32x1600000.Idx → EReal) (wd : S1x32.Idx → EReal) (bd : S1x1.Idx → EReal) (N : Nat) : EReal :=
  if h : N < 1600000 then (∑ k : Fin 32, wd (ix2 0 k) * zt (ix2 k ⟨N, h⟩)) + bd (ix2 0 0) else 0

/-- The output array as one function of its index. -/
def arrFn (zt : S32x1600000.Idx → EReal) (wd : S1x32.Idx → EReal) (bd : S1x1.Idx → EReal) : S12500x2x128.Idx → EReal :=
  fun i => pick (i 1).val (rowForm zt wd bd ((i 0).val * 128 + (i 2).val))

/-- The printed index maps, decided over the 25 grid points: the input block's column index is the output block's row
    index, every other block index is 0. -/
theorem block_indices : ∀ t : Fin cfg0.N,
    win0_0.index t (0 : Fin 2) = 0 ∧ win0_0.index t (1 : Fin 2) = win0_3.index t (0 : Fin 3)
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) < 25 :=
  (by decide +kernel : ∀ t : Fin grid0.N, _)

/-- Every one of the 25 row blocks of the output is some point's. -/
theorem row_block_reached : ∀ q : Fin 25, ∃ t : Fin cfg0.N, win0_3.index t = ![q.val, 0, 0] :=
  (by decide +kernel : ∀ q : Fin 25, ∃ t : Fin grid0.N, win0_3.index t = ![q.val, 0, 0])

/-- Lane L of point t's input blocks has the affine form of row (block row index) * 64000 + L. -/
theorem lane_is_row (c : Dev nD) (t : Fin cfg0.N) (L : Nat) (hL : L < 64000) :
    laneForm (iblk m c 0 t) (iblk m c 1 t) (iblk m c 2 t) L
      = rowForm (V m c main_v12) (V m c main_v5) (V m c main_v11) (win0_3.index t (0 : Fin 3) * 64000 + L) := by
  obtain ⟨e00, e01, e10, e11, e20, e21, e31, e32, e3lt⟩ := block_indices t
  unfold laneForm rowForm
  rw [dif_pos hL, dif_pos (by omega)]
  have hw : ∀ k : Fin 32, iblk m c 1 t (ix2 0 k) = V m c main_v5 (ix2 0 k) := by
    intro k
    show V m c main_v5 (((cfg0.win 1).blk t).view.emb (ix2 0 k)) = V m c main_v5 (ix2 0 k)
    refine congrArg _ (funext fun a => Fin.ext ?_)
    match a with
    | ⟨0, _⟩ => show win0_1.index t (0 : Fin 2) * 1 + 1 * (0 : Fin 1).val = (0 : Fin 1).val; rw [e10]; rfl
    | ⟨1, _⟩ => show win0_1.index t (1 : Fin 2) * 32 + 1 * k.val = k.val; rw [e11]; omega
  have hb : iblk m c 2 t (ix2 0 0) = V m c main_v11 (ix2 0 0) := by
    show V m c main_v11 (((cfg0.win 2).blk t).view.emb (ix2 0 0)) = V m c main_v11 (ix2 0 0)
    refine congrArg _ (funext fun a => Fin.ext ?_)
    match a with
    | ⟨0, _⟩ => show win0_2.index t (0 : Fin 2) * 1 + 1 * (0 : Fin 1).val = (0 : Fin 1).val; rw [e20]; rfl
    | ⟨1, _⟩ => show win0_2.index t (1 : Fin 2) * 1 + 1 * (0 : Fin 1).val = (0 : Fin 1).val; rw [e21]; rfl
  have hz : ∀ k : Fin 32, iblk m c 0 t (ix2 k ⟨L, hL⟩)
      = V m c main_v12 (ix2 k ⟨win0_3.index t (0 : Fin 3) * 64000 + L, by omega⟩) := by
    intro k
    show V m c main_v12 (((cfg0.win 0).blk t).view.emb (ix2 k ⟨L, hL⟩)) = _
    refine congrArg _ (funext fun a => Fin.ext ?_)
    match a with
    | ⟨0, _⟩ => show win0_0.index t (0 : Fin 2) * 32 + 1 * k.val = k.val; rw [e00]; omega
    | ⟨1, _⟩ => show win0_0.index t (1 : Fin 2) * 64000 + 1 * L = win0_3.index t (0 : Fin 3) * 64000 + L; rw [e01]; omega
  rw [hb]
  refine congrArg (· + _) (Finset.sum_congr rfl fun k _ => ?_)
  rw [hw k, hz k]

/-- WHAT POINT t WRITES BACK is block t of the output function. -/
theorem written_back_is_block (c : Dev nD) (t : Fin cfg0.N) :
    (dats m 0 c).flushed 3 t
      = ((cfg0.win 3).blk t).view.read (Elt Ideal) (arrFn (V m c main_v12) (V m c main_v5) (V m c main_v11)) := by
  show (cfg0.win 3).cut (grid0.coords t) ((dats m 0 c).after 3 t) = _
  rw [after0_3]
  obtain ⟨e00, e01, e10, e11, e20, e21, e31, e32, e3lt⟩ := block_indices t
  funext y
  refine (congrFun (out_eq (iblk m c 0 t) (iblk m c 1 t) (iblk m c 2 t)) y).trans ?_
  show blockFn (iblk m c 0 t) (iblk m c 1 t) (iblk m c 2 t) y
    = arrFn (V m c main_v12) (V m c main_v5) (V m c main_v11) (((cfg0.win 3).blk t).view.emb y)
  have hy0 : (y 0).val < 500 := (y 0).isLt
  have hy2 : (y 2).val < 128 := (y 2).isLt
  have c0 : ((((cfg0.win 3).blk t).view.emb y) 0).val = win0_3.index t (0 : Fin 3) * 500 + (y 0).val := by
    show win0_3.index t (0 : Fin 3) * 500 + 1 * (y 0).val = _; omega
  have c1 : ((((cfg0.win 3).blk t).view.emb y) 1).val = (y 1).val := by
    show win0_3.index t (1 : Fin 3) * 2 + 1 * (y 1).val = _; rw [e31]; omega
  have c2 : ((((cfg0.win 3).blk t).view.emb y) 2).val = (y 2).val := by
    show win0_3.index t (2 : Fin 3) * 128 + 1 * (y 2).val = _; rw [e32]; omega
  unfold blockFn arrFn
  rw [c0, c1, c2, lane_is_row m c t ((y 0).val * 128 + (y 2).val) (by omega)]
  refine congrArg (pick _) (congrArg (rowForm _ _ _) ?_)
  omega

/-- An index of the output is in point t's block iff each coordinate is in the block's range on its axis. -/
theorem in_block_iff (t : Fin cfg0.N) (i : S12500x2x128.Idx) :
    i ∈ ((cfg0.win 3).blk t).view.set ↔ ∀ a : Fin 3, win0_3.index t a * S500x2x128.size a ≤ (i a).val
      ∧ (i a).val < win0_3.index t a * S500x2x128.size a + S500x2x128.size a := by
  show i ∈ ((View.whole main_v13).slice (win0_3.rect t)).set ↔ _
  rw [View.set_slice_whole, Rect.mem_set_unit]
  exact Iff.rfl

/-- Every index of the output is in the block of the point whose row block holds it. -/
theorem rows_covered (i : S12500x2x128.Idx) :
    ∃ t : Fin cfg0.N, (cfg0.win 3).flush t = true ∧ i ∈ ((cfg0.win 3).blk t).view.set := by
  have hi0 : (i 0).val < 12500 := (i 0).isLt
  have hi1 : (i 1).val < 2 := (i 1).isLt
  have hi2 : (i 2).val < 128 := (i 2).isLt
  obtain ⟨t, ht⟩ := row_block_reached ⟨(i 0).val / 500, by omega⟩
  have q0 : win0_3.index t (0 : Fin 3) = (i 0).val / 500 := congrFun ht 0
  have q1 : win0_3.index t (1 : Fin 3) = 0 := congrFun ht 1
  have q2 : win0_3.index t (2 : Fin 3) = 0 := congrFun ht 2
  refine ⟨t, flush0_3 t, ?_⟩
  rw [in_block_iff]
  intro a
  match a with
  | ⟨0, _⟩ => show win0_3.index t (0 : Fin 3) * 500 ≤ (i 0).val ∧ (i 0).val < win0_3.index t (0 : Fin 3) * 500 + 500; omega
  | ⟨1, _⟩ => show win0_3.index t (1 : Fin 3) * 2 ≤ (i 1).val ∧ (i 1).val < win0_3.index t (1 : Fin 3) * 2 + 2; omega
  | ⟨2, _⟩ => show win0_3.index t (2 : Fin 3) * 128 ≤ (i 2).val ∧ (i 2).val < win0_3.index t (2 : Fin 3) * 128 + 128; omega

/-- THE OUTPUT ARRAY after the run. -/
theorem output_array (c : Dev nD) :
    (dats m 0 c).arrAt 3 cfg0.N = arrFn (V m c main_v12) (V m c main_v5) (V m c main_v11) :=
  (dats m 0 c).arrAt_eq_of_cover 3 _ (fun t _ => written_back_is_block m c t) rows_covered

end Cert.KernelIdeal.OutArray

end
-- ==== Proof.HostPrefix.lean ====
/-
  What the region finds in its three input arrays.

  Before the region the program transposes z, and forms the row W 0 - W 1 and the scalar b 0 - b 1 (each by two
  slices, reshapes, a subtraction and a reshape). Read at an index:
    the transposed array at (k, n) is z (n, k);
    the coefficient row at (0, k) is W (0, k) - W (1, k);
    the offset at (0, 0) is b 0 - b 1.
-/
import proofs.«181063_g77627238907915_cont_9to1_m_635_14_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The three argument arrays as launched, as functions of an index into the extended reals. -/
abbrev zArr (c : Dev nD) : S1600000x32.Idx → EReal := m ((c : Thread nD τ).loc main_arg0)
abbrev wArr (c : Dev nD) : S2x32.Idx → EReal := m ((c : Thread nD τ).loc main_arg1)
abbrev bArr (c : Dev nD) : S2.Idx → EReal := m ((c : Thread nD τ).loc main_arg2)

/-- The first region input is the transpose of z. -/
theorem zT_eq (c : Dev nD) : (V m c main_v12 : S32x1600000.Idx → EReal)
    = transpose S32x1600000 [1, 0] (zArr m c) transposes_S1600000x32_S32x1600000_1_0 := by
  show StableHlo.after hostOps0 (fun b => m (c, b)) (Proc.devRef .tc main_v12) = _
  after_results

/-- The second is the difference of the two rows of W, as a 1 x 32 row. -/
theorem wd_eq (c : Dev nD) : (V m c main_v5 : S1x32.Idx → EReal)
    = shapeCast S1x32 (subf (F := Ideal) (φ := .f32)
        (shapeCast S32 (extractStridedSlice S1x32 ![0, 0] (wArr m c) slices_S2x32_S1x32_0_0) shapeCasts_S1x32_S32)
        (shapeCast S32 (extractStridedSlice S1x32 ![1, 0] (wArr m c) slices_S2x32_S1x32_1_0) shapeCasts_S1x32_S32))
      shapeCasts_S32_S1x32 := by
  show StableHlo.after hostOps0 (fun b => m (c, b)) (Proc.devRef .tc main_v5) = _
  after_results
  rfl

/-- The third is the difference of the two entries of b, as a 1 x 1 array. -/
theorem bd_eq (c : Dev nD) : (V m c main_v11 : S1x1.Idx → EReal)
    = shapeCast S1x1 (subf (F := Ideal) (φ := .f32)
        (shapeCast S_ (extractStridedSlice S1 ![0] (bArr m c) slices_S2_S1_0) shapeCasts_S1_S_)
        (shapeCast S_ (extractStridedSlice S1 ![1] (bArr m c) slices_S2_S1_1) shapeCasts_S1_S_))
      shapeCasts_S_S1x1 := by
  show StableHlo.after hostOps0 (fun b => m (c, b)) (Proc.devRef .tc main_v11) = _
  after_results
  rfl

theorem zT_apply (c : Dev nD) (k : Fin 32) (n : Fin 1600000) :
    (V m c main_v12 : S32x1600000.Idx → EReal) (ix2 k n) = zArr m c (ix2 n k) := by
  rw [zT_eq]
  exact transpose_apply [1, 0] _ transposes_S1600000x32_S32x1600000_1_0 (ix2 k n) (ix2 n k) (fun b => match b with
    | ⟨0, _⟩ => rfl
    | ⟨1, _⟩ => rfl)

theorem wd_apply (c : Dev nD) (k : Fin 32) :
    (V m c main_v5 : S1x32.Idx → EReal) (ix2 0 k)
      = wArr m c (ix2 0 k) - wArr m c (ix2 1 k) := by
  rw [wd_eq]
  refine (shapeCast_apply _ shapeCasts_S32_S1x32 (ix2 0 k) (ix1 k) ?_).trans ?_
  · rw [Shape.rowMajor_val_one, Shape.rowMajor_val_two]; show k.val = (0 : Fin 1).val * 32 + k.val; simp
  · show shapeCast S32 _ shapeCasts_S1x32_S32 (ix1 k) - shapeCast S32 _ shapeCasts_S1x32_S32 (ix1 k) = _
    rw [shapeCast_apply _ shapeCasts_S1x32_S32 (ix1 k) (ix2 0 k) (by
        rw [Shape.rowMajor_val_one, Shape.rowMajor_val_two]; show (0 : Fin 1).val * 32 + k.val = k.val; simp),
      shapeCast_apply _ shapeCasts_S1x32_S32 (ix1 k) (ix2 0 k) (by
        rw [Shape.rowMajor_val_one, Shape.rowMajor_val_two]; show (0 : Fin 1).val * 32 + k.val = k.val; simp),
      extractStridedSlice_apply ![0, 0] _ slices_S2x32_S1x32_0_0 (ix2 0 k) (ix2 0 k) (fun a => match a with
        | ⟨0, _⟩ => rfl
        | ⟨1, _⟩ => by show k.val = 0 + k.val; omega),
      extractStridedSlice_apply ![1, 0] _ slices_S2x32_S1x32_1_0 (ix2 0 k) (ix2 1 k) (fun a => match a with
        | ⟨0, _⟩ => rfl
        | ⟨1, _⟩ => by show k.val = 0 + k.val; omega)]

theorem bd_apply (c : Dev nD) :
    (V m c main_v11 : S1x1.Idx → EReal) (ix2 0 0)
      = bArr m c (ix1 0) - bArr m c (ix1 1) := by
  rw [bd_eq]
  refine (shapeCast_apply _ shapeCasts_S_S1x1 (ix2 0 0) ix0 ?_).trans ?_
  · rw [Shape.rowMajor_val_two]; rfl
  · show shapeCast S_ _ shapeCasts_S1_S_ ix0 - shapeCast S_ _ shapeCasts_S1_S_ ix0 = _
    rw [shapeCast_apply _ shapeCasts_S1_S_ ix0 (ix1 0) (by rw [Shape.rowMajor_val_one]; rfl),
      shapeCast_apply _ shapeCasts_S1_S_ ix0 (ix1 0) (by rw [Shape.rowMajor_val_one]; rfl),
      extractStridedSlice_apply ![0] _ slices_S2_S1_0 (ix1 0) (ix1 0) (fun a => match a with
        | ⟨0, _⟩ => rfl),
      extractStridedSlice_apply ![1] _ slices_S2_S1_1 (ix1 0) (ix1 1) (fun a => match a with
        | ⟨0, _⟩ => rfl)]

end Cert.KernelIdeal.HostPrefix

end
-- ==== Proof.KernelRun.lean ====
/-
  The kernel program's result.

  After the region the program swaps the last two axes of the 12500 x 2 x 128 output and re-lays it as
  1600000 x 2: entry (n, j) of the result is entry (n / 128, j, n % 128) of the region's output, which is the
  class-j value of the affine form of row (n / 128) * 128 + n % 128 = n. In terms of the launch arrays that form is
  sum_k (W (0, k) - W (1, k)) * z (n, k) + (b 0 - b 1).
-/
import proofs.«181063_g77627238907915_cont_9to1_m_635_14_alg».proof.Proof.Gen.KernelIdeal.Frame
import proofs.«181063_g77627238907915_cont_9to1_m_635_14_alg».proof.Proof.OutArray
import proofs.«181063_g77627238907915_cont_9to1_m_635_14_alg».proof.Proof.HostPrefix
import Idealize.ShloMosaic.Lib.StableHlo.Run

set_option maxRecDepth 16384

noncomputable section

namespace Cert.KernelIdeal.KernelRun

open Cert.KernelIdeal Cert.KernelIdeal.Gen Cert.KernelIdeal.OutBlock Cert.KernelIdeal.OutArray Cert.KernelIdeal.HostPrefix
  Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Swapping the last two axes and re-laying as 1600000 x 2, read at (n, j). -/
theorem relayout_apply (A : S12500x2x128.Idx → EReal) (n : Fin 1600000) (j : Fin 2) :
    shapeCast S1600000x2 (transpose S12500x128x2 [0, 2, 1] A transposes_S12500x2x128_S12500x128x2_0_2_1)
        shapeCasts_S12500x128x2_S1600000x2 (ix2 n j)
      = A (ix3 ⟨n.val / 128, by have := n.isLt; omega⟩ j ⟨n.val % 128, Nat.mod_lt _ (by decide)⟩) := by
  have hn := n.isLt
  refine (shapeCast_apply _ shapeCasts_S12500x128x2_S1600000x2 (ix2 n j)
    (ix3 ⟨n.val / 128, by omega⟩ ⟨n.val % 128, Nat.mod_lt _ (by decide)⟩ j) ?_).trans ?_
  · rw [Shape.rowMajor_val_two, Shape.rowMajor_val_three]
    show (n.val / 128 * 128 + n.val % 128) * 2 + j.val = n.val * 2 + j.val
    have := Nat.div_add_mod n.val 128
    omega
  · exact transpose_apply [0, 2, 1] A transposes_S12500x2x128_S12500x128x2_0_2_1 _ _ (fun b => match b with
      | ⟨0, _⟩ => rfl
      | ⟨1, _⟩ => rfl
      | ⟨2, _⟩ => rfl)

/-- The result array as one function of its index, over the arrays the region finds. -/
def resFn (zt : S32x1600000.Idx → EReal) (wd : S1x32.Idx → EReal) (bd : S1x1.Idx → EReal) : S1600000x2.Idx → EReal :=
  fun i => pick (i 1).val (rowForm zt wd bd (i 0).val)

/-- The region's output array as the lines after the region find it. -/
theorem region_array (c : Dev nD) :
    Pipeline.withArrays (cfgs 0).spec c (V0 m c) (fun w => (dats m 0 c).arrAt w (cfgs 0).N) (Proc.devRef .tc main_v13)
      = arrFn (V m c main_v12) (V m c main_v5) (V m c main_v11) :=
  (Pipeline.withArrays_arr spec0 launch0.win.arr_inj c _ _ 3).trans (output_array m c)

/-- THE RESULT after the lines that follow the region. -/
theorem tail_eq (c : Dev nD) :
    (Pipeline.afterTail₀ cfgs (dats m) 0 (V0 m) [hostOps1] c main_v15 : S1600000x2.Idx → EReal)
      = resFn (V m c main_v12) (V m c main_v5) (V m c main_v11) := by
  unfold Pipeline.afterTail₀
  show StableHlo.after hostOps1 _ (Proc.devRef .tc main_v15) = _
  after_results
  show shapeCast S1600000x2 (transpose S12500x128x2 [0, 2, 1]
      (Pipeline.withArrays (cfgs 0).spec c (V0 m c) (fun w => (dats m 0 c).arrAt w (cfgs 0).N) (Proc.devRef .tc main_v13))
      transposes_S12500x2x128_S12500x128x2_0_2_1) shapeCasts_S12500x128x2_S1600000x2 = _
  rw [region_array]
  funext i
  obtain ⟨n, j, rfl⟩ : ∃ (n : Fin 1600000) (j : Fin 2), i = ix2 n j := ⟨i 0, i 1, eq_ix2 i⟩
  rw [relayout_apply]
  unfold arrFn resFn
  show pick j.val (rowForm _ _ _ (n.val / 128 * 128 + n.val % 128)) = pick j.val (rowForm _ _ _ n.val)
  rw [Nat.div_add_mod' n.val 128]

/-- The kernel program's run: the result at the result function, the arguments unchanged. -/
theorem run : θ_run defs (onTc (τ := τ) (main (F := Ideal))) ⟨m, fun _ => 0, ρ⟩ fun r => ∀ c : Dev nD,
      r.2.mem ((c.tc : Thread nD τ).loc main_v15) = resFn (V m c main_v12) (V m c main_v5) (V m c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The affine form of row n in terms of the launch arrays. -/
theorem rowForm_args (c : Dev nD) (n : Fin 1600000) :
    rowForm (V m c main_v12) (V m c main_v5) (V m c main_v11) n.val
      = (∑ k : Fin 32, (wArr m c (ix2 0 k) - wArr m c (ix2 1 k)) * zArr m c (ix2 n k)) + (bArr m c (ix1 0) - bArr m c (ix1 1)) := by
  unfold rowForm
  rw [dif_pos n.isLt, bd_apply]
  refine congrArg (· + _) (Finset.sum_congr rfl fun k _ => ?_)
  rw [wd_apply, show (⟨n.val, n.isLt⟩ : Fin 1600000) = n from rfl, zT_apply]

end Cert.KernelIdeal.KernelRun

end
-- ==== Proof.TwoClassLaw.lean ====
/-
  Two-class softmax is the logistic function of the logit difference.

  For real logits a, b with m = max a b:
      exp (a - m) / (exp (a - m) + exp (b - m)) = 1 / (1 + exp (-(a - b))),
      exp (b - m) / (exp (a - m) + exp (b - m)) = 1 - 1 / (1 + exp (-(a - b))).
  Both follow from exp (x - m) = exp x / exp m and clearing the positive denominators.

  The same two identities are then stated on the extended reals, in the exact shape the two programs
  compute them: on one side a maximum taken from -inf, an exponential of the shifted logits, a sum from 0
  and a quotient; on the other the logistic function and its complement to 1. They hold at real logits;
  at infinite logits the two sides differ, which is why the precondition (finite inputs) is used.

  The second half turns the difference of two affine forms over real data into one affine form with the
  difference of the coefficients: sum_k (u k - v k) * x k + (p - q) = (sum_k x k * u k + p) - (sum_k x k * v k + q).
-/
import Idealize.ShloMosaic.PureOps.Ideal
import Idealize.ShloMosaic.PureOps.Ideal.Laws

noncomputable section

namespace Cert.TwoClass

open Idealize.ShloMosaic

/-! ## Over the reals -/

theorem real_first (a b : ℝ) :
    Real.exp (a - max a b) * (1 / (Real.exp (a - max a b) + Real.exp (b - max a b))) = (1 + Real.exp (-(a - b)))⁻¹ := by
  have ha : Real.exp (a - max a b) = Real.exp a / Real.exp (max a b) := Real.exp_sub _ _
  have hb : Real.exp (b - max a b) = Real.exp b / Real.exp (max a b) := Real.exp_sub _ _
  have hd : Real.exp (-(a - b)) = Real.exp b / Real.exp a := by rw [neg_sub]; exact Real.exp_sub _ _
  rw [ha, hb, hd]
  have pa := Real.exp_pos a
  have pb := Real.exp_pos b
  have pm := Real.exp_pos (max a b)
  field_simp

theorem real_second (a b : ℝ) :
    Real.exp (b - max a b) * (1 / (Real.exp (a - max a b) + Real.exp (b - max a b))) = 1 - (1 + Real.exp (-(a - b)))⁻¹ := by
  have ha : Real.exp (a - max a b) = Real.exp a / Real.exp (max a b) := Real.exp_sub _ _
  have hb : Real.exp (b - max a b) = Real.exp b / Real.exp (max a b) := Real.exp_sub _ _
  have hd : Real.exp (-(a - b)) = Real.exp b / Real.exp a := by rw [neg_sub]; exact Real.exp_sub _ _
  rw [ha, hb, hd]
  have pa := Real.exp_pos a
  have pb := Real.exp_pos b
  have pm := Real.exp_pos (max a b)
  field_simp
  ring

/-! ## On the extended reals, in the programs' shapes -/

/-- The maximum over the two classes taken from -inf, then once more against -inf. -/
def shift (l : Fin 2 → EReal) : EReal := max ⊥ ((Finset.univ : Finset (Fin 2)).fold max ⊥ l)

/-- One entry of the softmax as the reference computes it: the exponential of the logit less the maximum, over the sum,
    started at 0, of both such exponentials. -/
def softmaxEntry (l : Fin 2 → EReal) (j : Fin 2) : EReal :=
  Ideal.div (Ideal.exp (l j - shift l)) (0 + ∑ k : Fin 2, Ideal.exp (l k - shift l))

/-- One entry as the kernel computes it from the logit difference d: class 0 gets the logistic function of d, class 1 its
    complement to 1. -/
def logisticEntry (d : EReal) (j : Fin 2) : EReal :=
  if j = 0 then Ideal.logistic d else 1 - Ideal.logistic d

theorem shift_coe (a b : ℝ) : shift ![(a : EReal), (b : EReal)] = ((max a b : ℝ) : EReal) := by
  unfold shift
  have hu : (Finset.univ : Finset (Fin 2)) = insert 0 {1} := by decide
  rw [hu, Finset.fold_insert (by decide), Finset.fold_singleton]
  simp only [Matrix.cons_val_zero, Matrix.cons_val_one, Matrix.head_cons]
  rw [max_bot_right, max_bot_left]
  exact (EReal.coe_strictMono.monotone.map_max).symm

theorem softmaxEntry_coe (a b : ℝ) (j : Fin 2) :
    softmaxEntry ![(a : EReal), (b : EReal)] j = logisticEntry ((a - b : ℝ) : EReal) j := by
  have hpos : Real.exp (a - max a b) + Real.exp (b - max a b) ≠ 0 :=
    ne_of_gt (add_pos (Real.exp_pos _) (Real.exp_pos _))
  have hden : (0 : EReal) + ∑ k : Fin 2, Ideal.exp (![(a : EReal), (b : EReal)] k - ((max a b : ℝ) : EReal))
      = ((Real.exp (a - max a b) + Real.exp (b - max a b) : ℝ) : EReal) := by
    rw [Fin.sum_univ_two]
    simp only [Matrix.cons_val_zero, Matrix.cons_val_one, Matrix.head_cons]
    rw [← EReal.coe_sub, ← EReal.coe_sub, Ideal.exp_coe, Ideal.exp_coe, ← EReal.coe_add, zero_add]
  revert j
  refine Fin.forall_fin_two.2 ⟨?_, ?_⟩
  · unfold softmaxEntry logisticEntry
    rw [shift_coe, hden, Ideal.div_coe hpos, if_pos rfl, Ideal.logistic_coe]
    show Ideal.exp ((a : EReal) - ((max a b : ℝ) : EReal)) * _ = _
    rw [← EReal.coe_sub, Ideal.exp_coe, ← EReal.coe_mul, real_first]
  · unfold softmaxEntry logisticEntry
    rw [shift_coe, hden, Ideal.div_coe hpos, if_neg (by decide), Ideal.logistic_coe]
    show Ideal.exp ((b : EReal) - ((max a b : ℝ) : EReal)) * _ = _
    rw [← EReal.coe_sub, Ideal.exp_coe, ← EReal.coe_mul, real_second, EReal.coe_sub, EReal.coe_one]

/-! ## Affine forms over real data -/

theorem coe_sum {n : Nat} (f : Fin n → ℝ) : (∑ k : Fin n, (f k : EReal)) = ((∑ k : Fin n, f k : ℝ) : EReal) := by
  refine Finset.induction_on (Finset.univ : Finset (Fin n)) (by simp) ?_
  intro a s ha ih
  rw [Finset.sum_insert ha, Finset.sum_insert ha, ih, EReal.coe_add]

/-- A real affine form, as an extended real. -/
theorem affine_coe {n : Nat} (x u : Fin n → ℝ) (p : ℝ) :
    (∑ k : Fin n, (x k : EReal) * (u k : EReal)) + (p : EReal) = (((∑ k : Fin n, x k * u k) + p : ℝ) : EReal) := by
  rw [EReal.coe_add, ← coe_sum]
  simp only [EReal.coe_mul]

/-- The form with the coefficients' differences is the difference of the two forms. -/
theorem affine_diff_coe {n : Nat} (x u v : Fin n → ℝ) (p q : ℝ) :
    (∑ k : Fin n, ((u k : EReal) - (v k : EReal)) * (x k : EReal)) + ((p : EReal) - (q : EReal))
      = ((((∑ k : Fin n, x k * u k) + p) - ((∑ k : Fin n, x k * v k) + q) : ℝ) : EReal) := by
  have e : ((∑ k : Fin n, x k * u k) + p) - ((∑ k : Fin n, x k * v k) + q) = (∑ k : Fin n, (u k - v k) * x k) + (p - q) := by
    rw [add_sub_add_comm, ← Finset.sum_sub_distrib]
    refine congrArg (· + (p - q)) (Finset.sum_congr rfl fun k _ => ?_)
    ring
  rw [e, EReal.coe_add, ← coe_sum, EReal.coe_sub]
  simp only [EReal.coe_mul, EReal.coe_sub]

end Cert.TwoClass

end
-- ==== Proof.RefValue.lean ====
/-
  The reference at one entry.

  Row n of the logits is l j = sum_k z (n, k) * W (j, k) + b j for the two classes j. The reference then takes the
  maximum of the row from -inf (and once more against -inf), subtracts it, exponentiates, sums the row from 0 and
  divides: its entry (n, j) is the two-class softmax entry of the row of logits.
-/
import proofs.«181063_g77627238907915_cont_9to1_m_635_14_alg».proof.Proof.Gen.ReferenceIdeal.Read
import proofs.«181063_g77627238907915_cont_9to1_m_635_14_alg».proof.Proof.TwoClassLaw

noncomputable section

namespace Cert.ReferenceIdeal.RefValue

open Cert.ReferenceIdeal Cert.ReferenceIdeal.Gen Cert.ReferenceIdeal.Read Idealize.ShloMosaic Idealize.ShloMosaic.ValueIdx Cert.TwoClass

/-- The logit of row n and class j. -/
def logit (z : S1600000x32.Idx → EReal) (W : S2x32.Idx → EReal) (b : S2.Idx → EReal) (n : Fin 1600000) (j : Fin 2) : EReal :=
  (∑ k : Fin 32, z (ix2 n k) * W (ix2 j k)) + b (ix1 j)

theorem ofBits_neg_inf : Ideal.ofBits .f32 0xFF800000#32 = ⊥ := by simp [Ideal.ofBits, Ideal.ieee]

theorem logits_apply (x0 : (⟨S1600000x32, .f32⟩ : BufTy).Contents (Elt Ideal)) (x1 : (⟨S2x32, .f32⟩ : BufTy).Contents (Elt Ideal))
    (x2 : (⟨S2, .f32⟩ : BufTy).Contents (Elt Ideal)) (n : Fin 1600000) (j : Fin 2) :
    val_main_v4 (F := Ideal) x0 x1 x2 (ix2 n j) = logit x0 x1 x2 n j := by
  rw [val_main_v4_apply, val_main_v1_apply, val_main_v3_apply, val_main_v2_apply]
  simp only [val_main_v0_apply]
  unfold logit
  show (∑ k : Fin 32, x0 (lidx_main_v1 (ix2 n j) k) * x1 (idx_main_v0 (ridx_main_v1 (ix2 n j) k))) + x2 (idx_main_v2 (idx_main_v3 (ix2 n j))) = _
  have e0 : ∀ k : Fin 32, lidx_main_v1 (ix2 n j) k = ix2 n k := fun k =>
    funext fun a => Fin.ext (by match a with | ⟨0, _⟩ => rfl | ⟨1, _⟩ => rfl)
  have e1 : ∀ k : Fin 32, idx_main_v0 (ridx_main_v1 (ix2 n j) k) = ix2 j k := fun k =>
    funext fun a => Fin.ext (by match a with | ⟨0, _⟩ => rfl | ⟨1, _⟩ => rfl)
  have e2 : idx_main_v2 (idx_main_v3 (ix2 n j)) = ix1 j :=
    funext fun a => Fin.ext (by match a with | ⟨0, _⟩ => rfl)
  simp only [e0, e1, e2]

/-- A reduction by maximum over the class axis is, at row j, the fold of max over the two classes from the initial value. -/
theorem rowmax_fold (y : S1600000x2.Idx → EReal) (init : S_.Idx → EReal) (hR : S1600000x2.Reduces [1] S1600000) (j : S1600000.Idx) :
    Host.reduce (fun a b : EReal => max a b) y init reducesTo_S1600000x2_S1600000_d1 h_S_ j
      = (Finset.univ : Finset (Fin (S1600000x2.size 1))).fold (fun a b : EReal => max a b) (init (Shape.Idx.first h_S_)) (y ∘ hR.lift j) := by
  haveI : Std.Commutative (fun a b : EReal => max a b) := ⟨max_comm⟩
  haveI : Std.Associative (fun a b : EReal => max a b) := ⟨max_assoc⟩
  exact Host.reduce_eq_fold_single (a := (1 : Fin S1600000x2.rank)) (fun a b : EReal => max a b) y init reducesTo_S1600000x2_S1600000_d1 hR h_S_ j

theorem rowmax_apply (x0 : (⟨S1600000x32, .f32⟩ : BufTy).Contents (Elt Ideal)) (x1 : (⟨S2x32, .f32⟩ : BufTy).Contents (Elt Ideal))
    (x2 : (⟨S2, .f32⟩ : BufTy).Contents (Elt Ideal)) (n : Fin 1600000) :
    val_main_v7 (F := Ideal) x0 x1 x2 (ix1 n) = shift (logit x0 x1 x2 n) := by
  rw [val_main_v7_apply, val_main_v6_apply, val_main_cst_0_apply]
  unfold val_main_v5 shift
  have hR : S1600000x2.Reduces [1] S1600000 := by decide
  show max (Ideal.ofBits .f32 0xFF800000#32) (Host.reduce (fun a b : EReal => max a b) (val_main_v4 (F := Ideal) x0 x1 x2) (val_main_cst (F := Ideal))
    reducesTo_S1600000x2_S1600000_d1 h_S_ (ix1 n)) = _
  rw [ofBits_neg_inf]
  refine congrArg (max (⊥ : EReal)) ((rowmax_fold (val_main_v4 (F := Ideal) x0 x1 x2) (val_main_cst (F := Ideal)) hR (ix1 n)).trans ?_)
  have hinit : val_main_cst (F := Ideal) (Shape.Idx.first h_S_) = (⊥ : EReal) := ofBits_neg_inf
  have hfun : (val_main_v4 (F := Ideal) x0 x1 x2 ∘ hR.lift (ix1 n)) = logit x0 x1 x2 n := by
    funext k
    have e : hR.lift (ix1 n) k = ix2 n k := funext fun a => Fin.ext (by match a with | ⟨0, _⟩ => rfl | ⟨1, _⟩ => rfl)
    show val_main_v4 (F := Ideal) x0 x1 x2 (hR.lift (ix1 n) k) = _
    rw [e]
    exact logits_apply x0 x1 x2 n k
  rw [hinit, hfun]
  rfl

/-- THE REFERENCE'S ENTRY (n, j): the two-class softmax entry j of row n's logits. -/
theorem result_apply (x0 : (⟨S1600000x32, .f32⟩ : BufTy).Contents (Elt Ideal)) (x1 : (⟨S2x32, .f32⟩ : BufTy).Contents (Elt Ideal))
    (x2 : (⟨S2, .f32⟩ : BufTy).Contents (Elt Ideal)) (n : Fin 1600000) (j : Fin 2) :
    val_main_v15 (F := Ideal) x0 x1 x2 (ix2 n j) = softmaxEntry (logit x0 x1 x2 n) j := by
  have hshift : ∀ j' : Fin 2, val_main_v9 (F := Ideal) x0 x1 x2 (ix2 n j') = shift (logit x0 x1 x2 n) := by
    intro j'
    rw [val_main_v9_apply, val_main_v8_apply]
    have e : idx_main_v8 (idx_main_v9 (ix2 n j')) = ix1 n := funext fun a => Fin.ext (by match a with | ⟨0, _⟩ => rfl)
    rw [e]
    exact rowmax_apply x0 x1 x2 n
  have hexp : ∀ j' : Fin 2, val_main_v11 (F := Ideal) x0 x1 x2 (ix2 n j') = Ideal.exp (logit x0 x1 x2 n j' - shift (logit x0 x1 x2 n)) := by
    intro j'
    rw [val_main_v11_apply, val_main_v10_apply, hshift, logits_apply]
    rfl
  rw [val_main_v15_apply, val_main_v14_apply, val_main_v13_apply, val_main_v12_apply, val_main_cst_1_apply, hexp]
  unfold softmaxEntry
  have e : ∀ k : Fin 2, idx_main_v12 (idx_main_v13 (idx_main_v14 (ix2 n j))) k = ix2 n k := fun k =>
    funext fun a => Fin.ext (by match a with | ⟨0, _⟩ => rfl | ⟨1, _⟩ => rfl)
  simp only [e, hexp]
  show Ideal.div _ (Ideal.ofBits .f32 0x00000000#32 + _) = _
  rw [Ideal.ofBits_zero_f32]

/-- The same as a statement about the whole result array. -/
theorem result_eq (x0 : (⟨S1600000x32, .f32⟩ : BufTy).Contents (Elt Ideal)) (x1 : (⟨S2x32, .f32⟩ : BufTy).Contents (Elt Ideal))
    (x2 : (⟨S2, .f32⟩ : BufTy).Contents (Elt Ideal)) :
    val_main_v15 (F := Ideal) x0 x1 x2 = fun i => softmaxEntry (logit x0 x1 x2 (i 0)) (i 1) := by
  funext i
  obtain ⟨n, j, rfl⟩ : ∃ (n : Fin 1600000) (j : Fin 2), i = ix2 n j := ⟨i 0, i 1, eq_ix2 i⟩
  exact result_apply x0 x1 x2 n j

end Cert.ReferenceIdeal.RefValue

end
-- ==== Proof.FiniteInputs.lean ====
/-
  What the precondition says, entry by entry.

  The precondition is the conjunction of three tests, one per argument array: every entry x satisfies
  |x| < +inf. Each test is an "all" over the array (a reduction by "and" into a single word), so the
  conjunction being 1 gives the comparison at every index of every array. On the extended reals
  |x| = max x (-x), and max x (-x) < +inf excludes both infinities: x is a real number.
-/
import proofs.«181063_g77627238907915_cont_9to1_m_635_14_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

instance : Subsingleton S_.Idx := ⟨fun a b => funext fun d => d.elim0⟩

/-- An extended real whose absolute value is below +inf is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.absf_def, htop] at h
  have hlt : max x (-x) < ⊤ := by
    by_contra hn
    have : Ideal.cmp .olt (max x (-x)) ⊤ = 0#1 := by
      unfold Ideal.cmp
      simp only [hn, decide_false, BitVec.ofBool_false]
      rfl
    rw [this] at h
    exact absurd h (by decide)
  induction x using EReal.rec with
  | bot => exact absurd hlt (by simp)
  | coe r => exact ⟨r, rfl⟩
  | top => exact absurd hlt (by simp)

variable [Facts]

/-- Under the precondition every entry of the three argument arrays is a real number. -/
theorem real_entries (x0 : FVec Ideal S1600000x32 .f32) (x1 : FVec Ideal S2x32 .f32) (x2 : FVec Ideal S2 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)

end Cert.FiniteInputs

end
-- ==== Proof.Bridge.lean ====
/-
  The two results are one function of finite arguments.

  With every entry of z, W and b a real number, the logits of row n are the real affine forms
  A = sum_k z (n, k) * W (0, k) + b 0 and B = sum_k z (n, k) * W (1, k) + b 1, the reference's entry (n, j) is the
  two-class softmax entry of (A, B), and the kernel's is the class-j value of the logistic function at
  sum_k (W (0, k) - W (1, k)) * z (n, k) + (b 0 - b 1) = A - B. The two-class law joins them.
  Distributing the coefficient difference over the sum is where finiteness is needed.
-/
import proofs.«181063_g77627238907915_cont_9to1_m_635_14_alg».proof.Proof.RefValue
import proofs.«181063_g77627238907915_cont_9to1_m_635_14_alg».proof.Proof.KernelRun
import proofs.«181063_g77627238907915_cont_9to1_m_635_14_alg».proof.Proof.FiniteInputs
import proofs.«181063_g77627238907915_cont_9to1_m_635_14_alg».proof.Proof.TwoClassLaw
import proofs.«181063_g77627238907915_cont_9to1_m_635_14_alg».proof.Proof.Gen.Pre_finite_inputs

set_option maxRecDepth 16384

noncomputable section

namespace Cert.Bridge

open Idealize.ShloMosaic Idealize.ShloMosaic.TcCoe Idealize.ShloMosaic.ValueIdx Idealize.SL.Sem
  Cert.TwoClass Cert.ReferenceIdeal.RefValue Cert.KernelIdeal.OutBlock Cert.KernelIdeal.OutArray Cert.KernelIdeal.KernelRun
  Cert.KernelIdeal.HostPrefix

/-- Over real data the reference's entry (n, j) is the kernel's. -/
theorem entries_agree (z : Cert.ReferenceIdeal.S1600000x32.Idx → EReal) (W : Cert.ReferenceIdeal.S2x32.Idx → EReal)
    (b : Cert.ReferenceIdeal.S2.Idx → EReal) (hz : ∀ i, ∃ r : ℝ, z i = (r : EReal)) (hW : ∀ i, ∃ r : ℝ, W i = (r : EReal))
    (hb : ∀ i, ∃ r : ℝ, b i = (r : EReal)) (n : Fin 1600000) (j : Fin 2) :
    softmaxEntry (logit z W b n) j
      = pick j.val ((∑ k : Fin 32, (W (ix2 0 k) - W (ix2 1 k)) * z (ix2 n k)) + (b (ix1 0) - b (ix1 1))) := by
  choose zr hzr using hz
  choose wr hwr using hW
  choose br hbr using hb
  have hl : logit z W b n = ![(((∑ k : Fin 32, zr (ix2 n k) * wr (ix2 0 k)) + br (ix1 0) : ℝ) : EReal),
      (((∑ k : Fin 32, zr (ix2 n k) * wr (ix2 1 k)) + br (ix1 1) : ℝ) : EReal)] := by
    funext j'
    revert j'
    refine Fin.forall_fin_two.2 ⟨?_, ?_⟩
    · show logit z W b n 0 = (((∑ k : Fin 32, zr (ix2 n k) * wr (ix2 0 k)) + br (ix1 0) : ℝ) : EReal)
      unfold logit
      simp only [hzr, hwr, hbr]
      exact affine_coe (fun k => zr (ix2 n k)) (fun k => wr (ix2 0 k)) (br (ix1 0))
    · show logit z W b n 1 = (((∑ k : Fin 32, zr (ix2 n k) * wr (ix2 1 k)) + br (ix1 1) : ℝ) : EReal)
      unfold logit
      simp only [hzr, hwr, hbr]
      exact affine_coe (fun k => zr (ix2 n k)) (fun k => wr (ix2 1 k)) (br (ix1 1))
  rw [hl, softmaxEntry_coe]
  simp only [hzr, hwr, hbr]
  rw [affine_diff_coe (fun k => zr (ix2 n k)) (fun k => wr (ix2 0 k)) (fun k => wr (ix2 1 k)) (br (ix1 0)) (br (ix1 1))]
  unfold logisticEntry pick
  revert j
  refine Fin.forall_fin_two.2 ⟨?_, ?_⟩
  · rw [if_pos rfl, if_pos (show ((0 : Fin 2) : ℕ) = 0 from rfl)]
  · rw [if_neg (by decide), if_neg (show ¬((1 : Fin 2) : ℕ) = 0 by decide)]

/-- Under the precondition the reference's result term of the launch arrays is the kernel program's result function. -/
theorem results_agree (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (zArr m c) (wArr m c) (bArr m c) = fun _ => 1#1) :
    Cert.ReferenceIdeal.Read.val_main_v15 (F := Ideal) (zArr m c) (wArr m c) (bArr m c)
      = resFn (Cert.KernelIdeal.Gen.V m c Cert.KernelIdeal.main_v12) (Cert.KernelIdeal.Gen.V m c Cert.KernelIdeal.main_v5)
          (Cert.KernelIdeal.Gen.V m c Cert.KernelIdeal.main_v11) := by
  obtain ⟨hz, hW, hb⟩ := Cert.FiniteInputs.real_entries (zArr m c) (wArr m c) (bArr m c) hpre
  funext i
  obtain ⟨n, j, rfl⟩ : ∃ (n : Fin 1600000) (j : Fin 2), i = ix2 n j := ⟨i 0, i 1, eq_ix2 i⟩
  rw [result_apply]
  unfold resFn
  show _ = pick j.val (rowForm _ _ _ n.val)
  rw [rowForm_args]
  exact entries_agree (zArr m c) (wArr m c) (bArr m c) hz hW hb n j

end Cert.Bridge

end
-- ==== Proof.lean ====
/-
  Two-class softmax of an affine map, computed two ways.

  The reference forms the logits l j = sum_k z (n, k) * W (j, k) + b j for the two classes and takes the softmax of
  each row. The kernel forms the single difference d = sum_k (W (0, k) - W (1, k)) * z (n, k) + (b 0 - b 1) per row,
  working on the transposed input in 25 blocks of 64000 rows, and writes logistic d for class 0 and 1 - logistic d for
  class 1, which the program then re-lays into the 1600000 x 2 result.

  On the extended reals with exact operations the two results are equal entry by entry when the inputs are finite:
    * the kernel's result array is read off its run block by block (Payload, OutBlock, OutArray, KernelRun) and
      through the operations before and after the region (HostPrefix, KernelRun);
    * the reference's result is read one operation at a time (RefValue);
    * finiteness of the inputs gives real entries (FiniteInputs), over which the difference of the two logits is the
      kernel's affine form and the two-class softmax is the logistic function of that difference (TwoClassLaw, Bridge).
  Reading the kernel's text at exact values rewrote none of its operations, so that conjunct is trivial; the three
  frames are the runs with the result dropped.
-/
import proofs.«181063_g77627238907915_cont_9to1_m_635_14_alg».proof.Defs
import proofs.«181063_g77627238907915_cont_9to1_m_635_14_alg».proof.Proof.Gen.Kernel
import proofs.«181063_g77627238907915_cont_9to1_m_635_14_alg».proof.Proof.Gen.Kernel.Skeleton
import proofs.«181063_g77627238907915_cont_9to1_m_635_14_alg».proof.Proof.Gen.Kernel.Launch
import proofs.«181063_g77627238907915_cont_9to1_m_635_14_alg».proof.Proof.Gen.Kernel.Points
import proofs.«181063_g77627238907915_cont_9to1_m_635_14_alg».proof.Proof.Gen.Kernel.Frame
import proofs.«181063_g77627238907915_cont_9to1_m_635_14_alg».proof.Proof.Gen.KernelIdeal
import proofs.«181063_g77627238907915_cont_9to1_m_635_14_alg».proof.Proof.Gen.KernelIdeal.Skeleton
import proofs.«181063_g77627238907915_cont_9to1_m_635_14_alg».proof.Proof.Gen.KernelIdeal.Launch
import proofs.«181063_g77627238907915_cont_9to1_m_635_14_alg».proof.Proof.Gen.KernelIdeal.Points
import proofs.«181063_g77627238907915_cont_9to1_m_635_14_alg».proof.Proof.Gen.KernelIdeal.Frame
import proofs.«181063_g77627238907915_cont_9to1_m_635_14_alg».proof.Proof.Gen.ReferenceIdeal
import proofs.«181063_g77627238907915_cont_9to1_m_635_14_alg».proof.Proof.Gen.Pre_finite_inputs
import proofs.«181063_g77627238907915_cont_9to1_m_635_14_alg».proof.Proof.Gen.ReferenceIdeal.Run
import proofs.«181063_g77627238907915_cont_9to1_m_635_14_alg».proof.Proof.Gen.ReferenceIdeal.Read
import proofs.«181063_g77627238907915_cont_9to1_m_635_14_alg».proof.Proof.KernelRun
import proofs.«181063_g77627238907915_cont_9to1_m_635_14_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference has no region: its frame is its run with the result dropped. -/
theorem frame_reference_ideal : Cert.frame_ReferenceIdeal :=
  fun m ρ _ => (θ_run Cert.ReferenceIdeal.defs _ _).mono (fun _ h c => (h c).2) (Cert.ReferenceIdeal.Value.run (F := Ideal) m ρ)

/-- Both programs end with the kernel's result function of the (agreeing, finite) arguments. -/
theorem algebraic : Cert.algebraic_KernelIdeal_ReferenceIdeal := by
  intro m ρ m' ρ' hpre hagree
  refine ⟨fun c => Cert.KernelIdeal.KernelRun.resFn (Cert.KernelIdeal.Gen.V m c Cert.KernelIdeal.main_v12)
      (Cert.KernelIdeal.Gen.V m c Cert.KernelIdeal.main_v5) (Cert.KernelIdeal.Gen.V m c Cert.KernelIdeal.main_v11),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  exact Cert.Bridge.results_agree m c (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
